-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S1x1 : Shape := ⟨2, ![1, 1]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1 : Shape := ⟨1, ![1]⟩
abbrev S_ : Shape := ⟨0, ![]⟩

abbrev nBuf : Space → Nat
  | .hbm => 3
  | .vmem => 3
  | .smem => 0
  | _ => 0

abbrev bufTy : (tb : Table) → Fin (tcTables nBuf tb) → BufTy
  | .hbm, ⟨0, _⟩ => ⟨S8192x512, .f32⟩
  | .hbm, ⟨1, _⟩ => ⟨S1x1, .f32⟩
  | .hbm, ⟨2, _⟩ => ⟨S_, .f32⟩
  | .local _ .vmem, ⟨0, _⟩ => ⟨S8192x512, .f32⟩
  | .local _ .vmem, ⟨1, _⟩ => ⟨S1x1, .f32⟩
  | .local _ .vmem, ⟨2, _⟩ => ⟨S1x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c512_i32 : BitVec 32 := 512#32
  let v3 : BitVec 32 := Scalar.muli arg0 c512_i32
  v3
def k0_off1 (i : grid0.Coords) : Fin 2 → Nat :=
  let arg0 : BitVec 32 := BitVec.ofNat 32 (i 0).val
  let c512_i32 : BitVec 32 := 512#32
  let v3 : BitVec 32 := Scalar.muli arg0 c512_i32
  let v4 : BitVec 32 := v3
  let v5 : Index := Scalar.indexCast v4
  let c0 : Index := 0#32
  ![v5.toNat, 0]
def k0_cond2 (i : grid0.Coords) : BitVec 1 :=
  let arg0 : BitVec 32 := BitVec.ofNat 32 (i 0).val
  let c15_i32 : BitVec 32 := 15#32
  let v532 : BitVec 1 := Scalar.cmpi .eq arg0 c15_i32
  let v533 : BitVec 32 := Scalar.extui v532
  let c0_i32_153 : BitVec 32 := 0#32
  let v534 : BitVec 1 := Scalar.cmpi .ne v533 c0_i32_153
  v534

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S512x512 : 0 < S512x512.numel
  bitsLt_bf16_f32 : FTy.bits .bf16 < FTy.bits .f32
  reduces_S512x512_S512 : S512x512.Reduces [1] S512
  shapeCasts_S512_S512x1 : S512.ShapeCasts S512x1
  iota_S512x1_d0_w32 : S512x1.Iotas .tc 32 [0]
  inb_S8192x512_S512x512_0_0 : ∀ a, (![0, 0] : Fin 2 → Nat) a + S512x512.size a ≤ S8192x512.size a
  transposes_S512x512_p1_0_S512x512 : S512x512.Transposes [1, 0] S512x512
  transposes_S512x1_p1_0_S1x512 : S512x1.Transposes [1, 0] S1x512
  broadcasts_S512x1_S512x512 : S512x1.Broadcasts S512x512
  broadcasts_S1x512_S512x512 : S1x512.Broadcasts S512x512
  iota_S1x512_d1_w32 : S1x512.Iotas .tc 32 [1]
  reduces_S512x1_S1 : S512x1.Reduces [0] S1
  shapeCasts_S1_S1x1 : S1.ShapeCasts S1x1
  inb_S8192x512_S512x512_512_0 : ∀ a, (![512, 0] : Fin 2 → Nat) a + S512x512.size a ≤ S8192x512.size a
  inb_S8192x512_S512x512_1024_0 : ∀ a, (![1024, 0] : Fin 2 → Nat) a + S512x512.size a ≤ S8192x512.size a
  inb_S8192x512_S512x512_1536_0 : ∀ a, (![1536, 0] : Fin 2 → Nat) a + S512x512.size a ≤ S8192x512.size a
  inb_S8192x512_S512x512_2048_0 : ∀ a, (![2048, 0] : Fin 2 → Nat) a + S512x512.size a ≤ S8192x512.size a
  inb_S8192x512_S512x512_2560_0 : ∀ a, (![2560, 0] : Fin 2 → Nat) a + S512x512.size a ≤ S8192x512.size a
  inb_S8192x512_S512x512_3072_0 : ∀ a, (![3072, 0] : Fin 2 → Nat) a + S512x512.size a ≤ S8192x512.size a
  inb_S8192x512_S512x512_3584_0 : ∀ a, (![3584, 0] : Fin 2 → Nat) a + S512x512.size a ≤ S8192x512.size a
  inb_S8192x512_S512x512_4096_0 : ∀ a, (![4096, 0] : Fin 2 → Nat) a + S512x512.size a ≤ S8192x512.size a
  inb_S8192x512_S512x512_4608_0 : ∀ a, (![4608, 0] : Fin 2 → Nat) a + S512x512.size a ≤ S8192x512.size a
  inb_S8192x512_S512x512_5120_0 : ∀ a, (![5120, 0] : Fin 2 → Nat) a + S512x512.size a ≤ S8192x512.size a
  inb_S8192x512_S512x512_5632_0 : ∀ a, (![5632, 0] : Fin 2 → Nat) a + S512x512.size a ≤ S8192x512.size a
  inb_S8192x512_S512x512_6144_0 : ∀ a, (![6144, 0] : Fin 2 → Nat) a + S512x512.size a ≤ S8192x512.size a
  inb_S8192x512_S512x512_6656_0 : ∀ a, (![6656, 0] : Fin 2 → Nat) a + S512x512.size a ≤ S8192x512.size a
  inb_S8192x512_S512x512_7168_0 : ∀ a, (![7168, 0] : Fin 2 → Nat) a + S512x512.size a ≤ S8192x512.size a
  inb_S8192x512_S512x512_7680_0 : ∀ a, (![7680, 0] : Fin 2 → Nat) a + S512x512.size a ≤ S8192x512.size a
  shapeCasts_S1x1_S_ : S1x1.ShapeCasts S_
  dot_S512x512_S512x512_S512x512_1_0_0_1_n_n_wf : DotDims.WF S512x512 S512x512 S512x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x512.size a ≤ S8192x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S8192x512.size a
  hwx0_0 : ∀ i : grid0.Coords, EltTy.bits .f32 = 32 ∨ (Rect.block (s := S8192x512) S8192x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S8192x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 42
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S512x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .i1⟩
  | .hbm, ⟨19, _⟩ => ⟨S8192x8192, .i1⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .i1⟩
  | .hbm, ⟨27, _⟩ => ⟨S8192x8192, .i1⟩
  | .hbm, ⟨28, _⟩ => ⟨S8192x8192, .i1⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.Tile.lean ====
/-
  One tile of the pairwise table, and the running total over the sixteen column tiles of a row block.

  A row block `R` (512 rows of the input) meets a column block `C` (512 rows again, standing for the columns of
  the pairwise table).  For the pair (row r of R, row c of C) the body forms the squared distance
  `max (|R_r|² + |C_c|² - 2 · ⟨R_r, C_c⟩) 0`, weighs it as `exp (-2 · d)`, keeps the weight only where the row's
  number in the whole table is below the column's, and adds the kept weights up: first along each row, then down
  the column of row totals.  The sixteen column blocks are visited in order and their totals added, one after the
  other, to a total that starts at zero.  Everything here is the body's own sequence of operations, at any
  interpretation of the floats.
-/
import proofs.«100178_j43284680409440_1_alg».proof.Proof.Gen.KernelIdeal.Skeleton
import Idealize.ShloMosaic.Lib.Pipeline.Value

noncomputable section

namespace Cert.KernelIdeal.Tile

open Idealize.ShloMosaic Idealize.SL.Sem Cert.KernelIdeal Cert.KernelIdeal.Facts₀ Cert.KernelIdeal.Facts

variable {F : FTy → Type} [FloatOps F]

/-- The squared norms of a block's rows, as a column. -/
def rowSq (v : Vec F S512x512 .f32) : FVec F S512x1 .f32 :=
  shapeCast S512x1 (multiReduction .add [1] S512 (mulf v v) 0x00000000#32 reduces_S512x512_S512 (.inl rfl) rfl)
    shapeCasts_S512_S512x1

/-- The row block as the matrix unit takes it. -/
def rowNarrow (v : Vec F S512x512 .f32) : FVec F S512x512 .bf16 := truncf .bf16 v bitsLt_bf16_f32

/-- The inner products of the row block's rows with the column block's rows. -/
def gramTile (rb : FVec F S512x512 .bf16) (xc : Vec F S512x512 .f32) : FVec F S512x512 .f32 :=
  matmul dot_S512x512_S512x512_S512x512_1_0_0_1_n_n none rb
    (transpose S512x512 [1, 0] (truncf .bf16 xc bitsLt_bf16_f32) transposes_S512x512_p1_0_S512x512)
    (constant S512x512 .f32 0x00000000#32)

/-- The squared distances of the tile, floored at zero. -/
def dist2 (rs cs : FVec F S512x1 .f32) (g : FVec F S512x512 .f32) : FVec F S512x512 .f32 :=
  maximumf
    (subf
      (addf (broadcastTo S512x512 rs broadcasts_S512x1_S512x512)
        (broadcastTo S512x512 (transpose S1x512 [1, 0] cs transposes_S512x1_p1_0_S1x512) broadcasts_S1x512_S512x512))
      (mulf (broadcast S512x512 (Scalar.ofBits .f32 0x40000000#32)) g))
    (broadcast S512x512 (Scalar.ofBits .f32 0x00000000#32))

/-- The column numbers of the tile whose first column is `off`, copied down the rows. -/
def colNo (off : BitVec 32) : IVec S512x512 32 :=
  broadcastTo S512x512 (addi (broadcast S1x512 off) (iota .tc S1x512 32 [1] iota_S1x512_d1_w32)) broadcasts_S1x512_S512x512

/-- The row numbers, copied along the columns. -/
def rowNo (ri : IVec S512x1 32) : IVec S512x512 32 := broadcastTo S512x512 ri broadcasts_S512x1_S512x512

/-- The weights `exp (-2 · d)`, kept where the mask holds and zero elsewhere. -/
def weigh (mask : IVec S512x512 1) (d : FVec F S512x512 .f32) : FVec F S512x512 .f32 :=
  select mask (exp (mulf (broadcast S512x512 (Scalar.ofBits .f32 0xC0000000#32)) d))
    (broadcast S512x512 (Scalar.ofBits .f32 0x00000000#32))

/-- A table's total: along each row, then down the column of row totals. -/
def tableTotal (e : FVec F S512x512 .f32) : FVec F S1x1 .f32 :=
  shapeCast S1x1
    (multiReduction .add [0] S1
      (shapeCast S512x1 (multiReduction .add [1] S512 e 0x00000000#32 reduces_S512x512_S512 (.inl rfl) rfl) shapeCasts_S512_S512x1)
      0x00000000#32 reduces_S512x1_S1 (.inl rfl) rfl)
    shapeCasts_S1_S1x1

/-- The kept weights of one tile, before they are added up. -/
def tileTable (rb : FVec F S512x512 .bf16) (rs : FVec F S512x1 .f32) (ri : IVec S512x1 32)
    (xc : Vec F S512x512 .f32) (off : BitVec 32) : FVec F S512x512 .f32 :=
  weigh (cmpi .slt (rowNo ri) (colNo off)) (dist2 rs (rowSq xc) (gramTile rb xc))

/-- One tile's total. -/
def tile (rb : FVec F S512x512 .bf16) (rs : FVec F S512x1 .f32) (ri : IVec S512x1 32)
    (xc : Vec F S512x512 .f32) (off : BitVec 32) : FVec F S1x1 .f32 :=
  tableTotal (tileTable rb rs ri xc off)

/-- The total a point starts from. -/
def zero11 : FVec F S1x1 .f32 := broadcast S1x1 (Scalar.ofBits .f32 0x00000000#32)

/-- The first column of tile `j`. -/
def offOf (j : Fin 16) : BitVec 32 := BitVec.ofNat 32 (512 * j.val)

/-- The running total after the column tiles `0 … n`. -/
def chain (rb : FVec F S512x512 .bf16) (rs : FVec F S512x1 .f32) (ri : IVec S512x1 32)
    (col : Fin 16 → Vec F S512x512 .f32) : (n : ℕ) → n < 16 → FVec F S1x1 .f32
  | 0, h => addf zero11 (tile rb rs ri (col ⟨0, h⟩) (offOf ⟨0, h⟩))
  | n + 1, h => addf (chain rb rs ri col n (Nat.lt_of_succ_lt h)) (tile rb rs ri (col ⟨n + 1, h⟩) (offOf ⟨n + 1, h⟩))

/-- What a point adds to the carried total: the running total after the last column tile. -/
def pointTotal (i : grid0.Coords) (r : Vec F S512x512 .f32) (col : Fin 16 → Vec F S512x512 .f32) : FVec F S1x1 .f32 :=
  chain (rowNarrow r) (rowSq r) (Gen.k0_pay5 i) col 15 (by decide)

/-- Column block `j` (rows `512 j … 512 j + 511` of the input) lies inside the array. -/
theorem colInb (j : Fin 16) : ∀ a, (![512 * j.val, 0] : Fin 2 → Nat) a + S512x512.size a ≤ S8192x512.size a := by
  intro a
  have hj := j.isLt
  match a with
  | ⟨0, _⟩ => show 512 * j.val + 512 ≤ 8192; omega
  | ⟨1, _⟩ => show 0 + 512 ≤ 512; omega

/-- The row block of point `i`: the rows of the input from the point's offset on. -/
def rowBlock (i : grid0.Coords) (x : Vec F S8192x512 .f32) : Vec F S512x512 .f32 :=
  View.ld x (Rect.unit (s := S8192x512) (k0_off1 i) S512x512.size (Facts₀.k0_off1_inb i))

/-- Column block `j`: rows `512 j … 512 j + 511` of the input. -/
def colBlock (x : Vec F S8192x512 .f32) (j : Fin 16) : Vec F S512x512 .f32 :=
  View.ld x (Rect.unit (s := S8192x512) ![512 * j.val, 0] S512x512.size (colInb j))

/-- What a point leaves in the carried total when it found `xs` there: `xs` plus the point's total. -/
def carried (i : grid0.Coords) (x : Vec F S8192x512 .f32) (xs : Vec F S1x1 .f32) : Vec F S1x1 .f32 :=
  shapeCast S1x1 (addf xs (pointTotal i (rowBlock i x) (colBlock x))) Facts₀.shapeCasts_S1x1_S1x1

end Cert.KernelIdeal.Tile

end
-- ==== Proof.Pieces.lean ====
/-
  What each of the three kinds of grid point leaves behind.

  The body keeps one number, the carried total, in a scratch cell across the grid.  At the first point it stores
  zero there, reads it back, and stores zero plus the point's own total; at every later point it reads what the
  point before left and stores that plus its own total; at the last point it moreover reads the carried total back
  and stores the logarithm of its quotient by the number of pairs into the output cell.  Each case's stores cover
  the one-entry cell, so what the cell holds afterwards is the last store's value, and a load after a covering
  store reads that store's value.
-/
import proofs.«100178_j43284680409440_1_alg».proof.Proof.Gen.KernelIdeal.Frame
import proofs.«100178_j43284680409440_1_alg».proof.Proof.Tile
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- The one-entry cell is stored and loaded from its origin. -/
theorem hz : (![0, 0] : Fin 2 → Nat) = fun _ => 0 := funext fun a => by fin_cases a <;> rfl

/-- A later point that is not the last: the carried total grows by the point's total. -/
theorem scratch_B (c : Dev nD) (i : grid0.Coords) (a1 : Memref sig .tc .vmem S8192x512 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : ¬cond0_1 i) (x : Vec F S8192x512 .f32) (xs : Vec F S1x1 .f32) :
    sout0_B_0 c i a1 h1 a2 h2 a3 h3 hc0 hc1 x xs = Tile.carried i x xs := by
  unfold sout0_B_0
  rw [View.read_writes_eq_canon _ _ _ (scover0_B_0 c i a1 h1 a2 h2 a3 h3 hc0 hc1 x xs)]
  unfold kernelRun0_B
  dsimp only
  sl_unfold_words
  rw [View.canon_unit_zero hz]
  simp only [View.readAt_eq_ld, h1.read_unread, h3.read_unread, View.ld_unit_zero (S := S1x1) hz]
  rfl

/-- The last point: the carried total grows in the same way. -/
theorem scratch_C (c : Dev nD) (i : grid0.Coords) (a1 : Memref sig .tc .vmem S8192x512 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S8192x512 .f32) (xs : Vec F S1x1 .f32) :
    sout0_C_0 c i a1 h1 a2 h2 a3 h3 hc0 hc1 x xs = Tile.carried i x xs := by
  unfold sout0_C_0
  rw [View.read_writes_eq_canon _ _ _ (scover0_C_0 c i a1 h1 a2 h2 a3 h3 hc0 hc1 x xs)]
  unfold kernelRun0_C
  dsimp only
  sl_unfold_words
  rw [View.canon_unit_zero hz]
  simp only [View.readAt_eq_ld, h1.read_unread, h3.read_unread, View.ld_unit_zero (S := S1x1) hz]
  rfl

/-- The last point's output cell: the logarithm of the carried total's quotient by the number of pairs. -/
theorem out_C (c : Dev nD) (i : grid0.Coords) (a1 : Memref sig .tc .vmem S8192x512 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S8192x512 .f32) (xs : Vec F S1x1 .f32) :
    out0_C_1 c i a1 h1 a2 h2 a3 h3 hc0 hc1 x xs = k0_pay1 (Tile.carried i x xs) := by
  unfold out0_C_1
  rw [View.read_writes_eq_canon _ _ _ (cover0_C_1 c i a1 h1 a2 h2 a3 h3 hc0 hc1 x xs)]
  unfold kernelRun0_C
  dsimp only
  sl_unfold_words
  rw [View.canon_unit_zero hz, View.readCov_unit_zero (S := S1x1) _ hz]
  simp only [View.readAt_eq_ld, h1.read_unread, h3.read_unread, View.ld_unit_zero (S := S1x1) hz]
  rfl

/-- The first point: the cell is zeroed, and the point's total is added to the zero read back. -/
theorem scratch_A (c : Dev nD) (i : grid0.Coords) (a1 : Memref sig .tc .vmem S8192x512 .f32) (h1 : a1.IsWhole)
    (a2 : Memref sig .tc .vmem S1x1 .f32) (h2 : a2.IsWhole) (a3 : Memref sig .tc .vmem S1x1 .f32) (h3 : a3.IsWhole)
    (hc0 : cond0_0 i) (hc1 : ¬cond0_1 i) (x : Vec F S8192x512 .f32) :
    sout0_A_0 c i a1 h1 a2 h2 a3 h3 hc0 hc1 x = Tile.carried i x k0_pay2 := by
  unfold sout0_A_0
  rw [View.read_writes_eq_canon _ _ _ (scover0_A_0 c i a1 h1 a2 h2 a3 h3 hc0 hc1 x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S1x1) hz]
  rfl

end Cert.KernelIdeal.Pieces

end
-- ==== Proof.LibFlatPairs.lean ====
/-
  Sums and greatest elements over the pairs of two finite ranges, in the orders programs take them.

  A table `f s t` with `s` over `n` rows and `t` over `m` columns can be summed over the pairs `(s, t)`, row by row
  (each row first, then the row totals), or as one list of `N = n · m` entries in row-major order, entry `k` being
  `f (k / m) (k % m)`. In a commutative monoid the three sums agree; in a lattice with a least element the three
  greatest elements agree. A fold of `max` from the least element is that greatest element.
-/
import Mathlib.Algebra.BigOperators.Fin
import Mathlib.Order.CompleteLattice.Finset
import Mathlib.Data.Fintype.BigOperators
import Mathlib.Data.EReal.Basic

namespace Cert.FlatPairs

variable {n m N : ℕ}

/-- The row of entry `k` of the flattened table. -/
def rowOf (h : N = n * m) (k : Fin N) : Fin n :=
  ⟨k.val / m, by
    have hk := k.isLt
    rcases Nat.eq_zero_or_pos m with hm | hm
    · subst hm; omega
    · exact (Nat.div_lt_iff_lt_mul hm).2 (h ▸ hk)⟩
/-- Its column. -/
def colOf (h : N = n * m) (k : Fin N) : Fin m :=
  ⟨k.val % m, by
    have hk := k.isLt
    rcases Nat.eq_zero_or_pos m with hm | hm
    · subst hm; omega
    · exact Nat.mod_lt _ hm⟩

/-- Entry `(s, t)` sits at position `s · m + t`. -/
def posOf (h : N = n * m) (p : Fin n × Fin m) : Fin N :=
  ⟨p.1.val * m + p.2.val, by
    have h1 := p.1.isLt; have h2 := p.2.isLt
    calc p.1.val * m + p.2.val < p.1.val * m + m := by omega
      _ = (p.1.val + 1) * m := by ring
      _ ≤ n * m := Nat.mul_le_mul_right m h1
      _ = N := h.symm⟩

/-- Row-major flattening as a bijection between positions and pairs. -/
def pairEquiv (h : N = n * m) : Fin N ≃ Fin n × Fin m where
  toFun k := (rowOf h k, colOf h k)
  invFun := posOf h
  left_inv k := Fin.ext (by
    show k.val / m * m + k.val % m = k.val
    rw [Nat.mul_comm]; exact Nat.div_add_mod k.val m)
  right_inv p := by
    have h2 := p.2.isLt
    have hm : 0 < m := by omega
    refine Prod.ext (Fin.ext ?_) (Fin.ext ?_)
    · show (p.1.val * m + p.2.val) / m = p.1.val
      rw [Nat.mul_comm, Nat.mul_add_div hm, Nat.div_eq_of_lt h2, Nat.add_zero]
    · show (p.1.val * m + p.2.val) % m = p.2.val
      rw [Nat.mul_comm, Nat.mul_add_mod, Nat.mod_eq_of_lt h2]

section sums
variable {M : Type} [AddCommMonoid M]

/-- The sum over the pairs is the sum of the row totals. -/
theorem sum_rows (f : Fin n → Fin m → M) : ∑ p : Fin n × Fin m, f p.1 p.2 = ∑ s, ∑ t, f s t :=
  Fintype.sum_prod_type' f

/-- The sum of the flattened table is the sum over the pairs. -/
theorem sum_flat (h : N = n * m) (f : Fin n → Fin m → M) :
    ∑ k : Fin N, f (rowOf h k) (colOf h k) = ∑ p : Fin n × Fin m, f p.1 p.2 :=
  Fintype.sum_equiv (pairEquiv h) _ _ fun _ => rfl
end sums

section sups
variable {L : Type} [SemilatticeSup L] [OrderBot L]

/-- The greatest element over the pairs is the greatest of the rows' greatest elements. -/
theorem sup_rows (f : Fin n → Fin m → L) :
    (Finset.univ : Finset (Fin n × Fin m)).sup (fun p => f p.1 p.2)
      = (Finset.univ : Finset (Fin n)).sup fun s => (Finset.univ : Finset (Fin m)).sup fun t => f s t := by
  apply le_antisymm
  · refine Finset.sup_le fun p _ => ?_
    exact le_trans (Finset.le_sup (f := fun t => f p.1 t) (Finset.mem_univ p.2))
      (Finset.le_sup (f := fun s => (Finset.univ : Finset (Fin m)).sup fun t => f s t) (Finset.mem_univ p.1))
  · refine Finset.sup_le fun s _ => Finset.sup_le fun t _ => ?_
    exact Finset.le_sup (f := fun p : Fin n × Fin m => f p.1 p.2) (Finset.mem_univ (s, t))

/-- The greatest element of the flattened table is the greatest over the pairs. -/
theorem sup_flat (h : N = n * m) (f : Fin n → Fin m → L) :
    (Finset.univ : Finset (Fin N)).sup (fun k => f (rowOf h k) (colOf h k))
      = (Finset.univ : Finset (Fin n × Fin m)).sup fun p => f p.1 p.2 := by
  apply le_antisymm
  · refine Finset.sup_le fun k _ => ?_
    exact Finset.le_sup (f := fun p : Fin n × Fin m => f p.1 p.2) (Finset.mem_univ (pairEquiv h k))
  · refine Finset.sup_le fun p _ => ?_
    have := Finset.le_sup (f := fun k => f (rowOf h k) (colOf h k)) (Finset.mem_univ ((pairEquiv h).symm p))
    have e : pairEquiv h ((pairEquiv h).symm p) = p := (pairEquiv h).apply_symm_apply p
    have e1 : rowOf h ((pairEquiv h).symm p) = p.1 := congrArg Prod.fst e
    have e2 : colOf h ((pairEquiv h).symm p) = p.2 := congrArg Prod.snd e
    simpa only [e1, e2] using this
end sups

/-- A fold of `max` from the least element over a finite set is the set's greatest element. -/
theorem fold_max_bot {ι : Type} [DecidableEq ι] (s : Finset ι) (f : ι → EReal) : s.fold max ⊥ f = s.sup f := by
  induction s using Finset.induction_on with
  | empty => simp
  | insert a s ha ih => rw [Finset.fold_insert ha, Finset.sup_insert, ih]

end Cert.FlatPairs
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibColumnSum.lean ====
/-
  The sum of a column read at an index.

  Reducing a column `[a, 1]` along its first axis gives a vector `[1]` whose one entry is the sum of the column's
  `a` entries. The index is written by its coordinates.
-/
import Idealize.ShloMosaic.PureOps.Ideal.Laws
import Idealize.ShloMosaic.Lib.ValueIdx

namespace Cert.ColumnSum

open Idealize.ShloMosaic Idealize.ShloMosaic.ValueIdx

/-- The index of the column that reduces to `u` along the first axis and has `k` there is `(k, u)`. -/
theorem lift_col {a : ℕ} (h : (⟨2, ![a, 1]⟩ : Shape).Reduces [0] ⟨1, ![1]⟩) (u : Fin 1)
    (k : Fin ((⟨2, ![a, 1]⟩ : Shape).size 0)) : h.lift (ix1 u) k = ix2 (⟨k.val, k.isLt⟩ : Fin a) u := by
  funext d; apply Fin.ext
  match d with
  | ⟨0, _⟩ => rfl
  | ⟨1, _⟩ => rfl

/-- A float sum down a column, from the zero word: the sum of the column's entries. -/
theorem multiReduction_add_col {a : ℕ} (src : FVec Ideal ⟨2, ![a, 1]⟩ .f32)
    (h : (⟨2, ![a, 1]⟩ : Shape).Reduces [0] ⟨1, ![1]⟩) (u : Fin 1) :
    multiReduction .add [0] ⟨1, ![1]⟩ src 0x00000000#32 h (.inl rfl) rfl (ix1 u) = ∑ k : Fin a, src (ix2 k u) :=
  (Ideal.multiReduction_add_single src 0x00000000#32 h (.inl rfl) rfl (ix1 u)).trans
    (Finset.sum_congr rfl fun k _ => congrArg src (lift_col h u k))

end Cert.ColumnSum
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibWholeTable.lean ====
/-
  A whole table reduced to one number the way a vector program does it, and one number copied back over a table.

  A program takes the greatest entry (or the total) of an `a × b` table in two steps: each row is reduced to one
  number, the `a` row results are laid out as a column, and the column is reduced to a one-entry vector. The result
  is the greatest entry (the total) over all pairs `(s, t)`. The one-entry vector is then laid out as a `1 × 1`
  matrix and copied over an `a × b` table, or laid out as `1 × 1 × 1` and copied along `n` lanes; every entry of
  the copy is the one number. Every index is written by its coordinates.
-/
import Idealize.ShloMosaic.PureOps.Ideal.Laws
import Idealize.ShloMosaic.Lib.ValueIdx
import Idealize.ShloMosaic.Lib.ValueLayout
import proofs.«100178_j43284680409440_1_alg».proof.Proof.LibFlatPairs
import proofs.«100178_j43284680409440_1_alg».proof.Proof.LibRowForms
import proofs.«100178_j43284680409440_1_alg».proof.Proof.LibColumnSum
import proofs.«100178_j43284680409440_1_alg».proof.Proof.LibColumnForms

noncomputable section

namespace Cert.WholeTable

open Idealize.ShloMosaic Idealize.ShloMosaic.ValueIdx

/-- The word of minus infinity denotes the least extended real. -/
theorem ofBits_negInf : Ideal.ofBits .f32 0xFF800000#32 = (⊥ : EReal) := by simp [Ideal.ofBits, Ideal.ieee]

/-- A float maximum down a column, from the word of minus infinity: the fold of `max` over the column's entries. -/
theorem multiReduction_max_col {a : ℕ} (src : FVec Ideal ⟨2, ![a, 1]⟩ .f32)
    (h : (⟨2, ![a, 1]⟩ : Shape).Reduces [0] ⟨1, ![1]⟩) (u : Fin 1) :
    multiReduction .maximumf [0] ⟨1, ![1]⟩ src 0xFF800000#32 h (.inl rfl) rfl (ix1 u)
      = (Finset.univ : Finset (Fin a)).fold max (Ideal.ofBits .f32 0xFF800000#32) (fun k => src (ix2 k u)) :=
  (Ideal.multiReduction_maximumf_single src 0xFF800000#32 h (.inl rfl) rfl (ix1 u)).trans
    (congrArg (fun f => Finset.fold max (Ideal.ofBits .f32 0xFF800000#32) f (Finset.univ : Finset (Fin a)))
      (funext fun k => congrArg src (Cert.ColumnSum.lift_col h u k)))

/-- Rows first, then the column of row results: the greatest entry over all pairs. -/
theorem tableMax_apply {a b : ℕ} (m : FVec Ideal ⟨2, ![a, b]⟩ .f32)
    (h1 : (⟨2, ![a, b]⟩ : Shape).Reduces [1] ⟨1, ![a]⟩) (h2 : (⟨1, ![a]⟩ : Shape).ShapeCasts ⟨2, ![a, 1]⟩)
    (h3 : (⟨2, ![a, 1]⟩ : Shape).Reduces [0] ⟨1, ![1]⟩) (u : Fin 1) :
    multiReduction (F := Ideal) .maximumf [0] ⟨1, ![1]⟩
        (shapeCast ⟨2, ![a, 1]⟩ (multiReduction (F := Ideal) .maximumf [1] ⟨1, ![a]⟩ m 0xFF800000#32 h1 (.inl rfl) rfl) h2)
        0xFF800000#32 h3 (.inl rfl) rfl (ix1 u)
      = (Finset.univ : Finset (Fin a × Fin b)).sup fun p => m (ix2 p.1 p.2) := by
  rw [multiReduction_max_col, ofBits_negInf, Cert.FlatPairs.fold_max_bot, Cert.FlatPairs.sup_rows (fun s t => m (ix2 s t))]
  refine Finset.sup_congr rfl fun k _ => ?_
  rw [Cert.ColumnForms.shapeCast_a_a1_apply, Cert.RowForms.multiReduction_max_rows, ofBits_negInf,
    Cert.FlatPairs.fold_max_bot]

/-- Rows first, then the column of row results: the total over all pairs. -/
theorem tableSum_apply {a b : ℕ} (m : FVec Ideal ⟨2, ![a, b]⟩ .f32)
    (h1 : (⟨2, ![a, b]⟩ : Shape).Reduces [1] ⟨1, ![a]⟩) (h2 : (⟨1, ![a]⟩ : Shape).ShapeCasts ⟨2, ![a, 1]⟩)
    (h3 : (⟨2, ![a, 1]⟩ : Shape).Reduces [0] ⟨1, ![1]⟩) (u : Fin 1) :
    multiReduction (F := Ideal) .add [0] ⟨1, ![1]⟩
        (shapeCast ⟨2, ![a, 1]⟩ (multiReduction (F := Ideal) .add [1] ⟨1, ![a]⟩ m 0x00000000#32 h1 (.inl rfl) rfl) h2)
        0x00000000#32 h3 (.inl rfl) rfl (ix1 u)
      = ∑ p : Fin a × Fin b, m (ix2 p.1 p.2) := by
  rw [Cert.ColumnSum.multiReduction_add_col, Cert.FlatPairs.sum_rows (fun s t => m (ix2 s t))]
  refine Finset.sum_congr rfl fun k _ => ?_
  rw [Cert.ColumnForms.shapeCast_a_a1_apply, Cert.RowForms.multiReduction_add_rows]

variable {α : Type}

/-- A one-entry vector as a `1 × 1` matrix reads its entry. -/
theorem cell_apply (x : (⟨1, ![1]⟩ : Shape).Idx → α) (h : (⟨1, ![1]⟩ : Shape).ShapeCasts ⟨2, ![1, 1]⟩) (u v : Fin 1) :
    shapeCast ⟨2, ![1, 1]⟩ x h (ix2 u v) = x (ix1 (0 : Fin 1)) := by
  have hv : v = 0 := Subsingleton.elim _ _
  subst hv
  exact shapeCast_a_1a_apply x h u (0 : Fin 1)

/-- A one-entry vector as a `1 × 1` matrix copied over an `a × b` table reads its entry everywhere. -/
theorem splat_apply {a b : ℕ} (x : (⟨1, ![1]⟩ : Shape).Idx → α) (h : (⟨1, ![1]⟩ : Shape).ShapeCasts ⟨2, ![1, 1]⟩)
    (h' : (⟨2, ![1, 1]⟩ : Shape).Broadcasts ⟨2, ![a, b]⟩) (s : Fin a) (t : Fin b) :
    broadcastTo ⟨2, ![a, b]⟩ (shapeCast ⟨2, ![1, 1]⟩ x h) h' (ix2 s t) = x (ix1 (0 : Fin 1)) := by
  refine (broadcastTo_apply _ h' (ix2 s t) (ix2 (0 : Fin 1) (0 : Fin 1)) fun ax => ?_).trans (cell_apply x h 0 0)
  match ax with
  | ⟨0, _⟩ => rfl
  | ⟨1, _⟩ => rfl

/-- A one-entry vector as `1 × 1`, then `1 × 1 × 1` (twice), copied along `n` lanes reads its entry in every lane. -/
theorem lanes_apply {n : ℕ} (x : (⟨1, ![1]⟩ : Shape).Idx → α) (h1 : (⟨1, ![1]⟩ : Shape).ShapeCasts ⟨2, ![1, 1]⟩)
    (h2 : (⟨2, ![1, 1]⟩ : Shape).ShapeCasts ⟨3, ![1, 1, 1]⟩) (h3 : (⟨3, ![1, 1, 1]⟩ : Shape).ShapeCasts ⟨3, ![1, 1, 1]⟩)
    (h4 : (⟨3, ![1, 1, 1]⟩ : Shape).Broadcasts ⟨3, ![1, 1, n]⟩) (l : Fin n) :
    broadcastTo ⟨3, ![1, 1, n]⟩
        (shapeCast ⟨3, ![1, 1, 1]⟩ (shapeCast ⟨3, ![1, 1, 1]⟩ (shapeCast ⟨2, ![1, 1]⟩ x h1) h2) h3) h4
        (ix3 (0 : Fin 1) (0 : Fin 1) l)
      = x (ix1 (0 : Fin 1)) := by
  refine (broadcastTo_apply _ h4 (ix3 (0 : Fin 1) (0 : Fin 1) l) (ix3 (0 : Fin 1) (0 : Fin 1) (0 : Fin 1)) fun ax => ?_).trans ?_
  · match ax with
    | ⟨0, _⟩ => rfl
    | ⟨1, _⟩ => rfl
    | ⟨2, _⟩ => rfl
  · rw [shapeCast_self]
    refine (shapeCast_ab_1ab_apply _ h2 (0 : Fin 1) (0 : Fin 1) (0 : Fin 1)).trans (cell_apply x h1 0 0)

end Cert.WholeTable

end
-- ==== Proof.LibPlainProduct.lean ====
/-
  A product of an m×k matrix with the TRANSPOSE of an n×k matrix, read at one entry.

  A linear layer `y = x · Wᵀ` with the weight stored [out, in] prints in a kernel as a `tpu.matmul` of the rows with
  `tpu.transpose W` into a zero accumulator, and on the host as a `dot_general` of the rows with `stablehlo.transpose W`;
  both have the dimension numbers of the plain product (contract the left operand's axis 1 with the right operand's
  axis 0, no batch axis). At the ideal values either one, read at entry (a, b), is the sum over the contracted
  coordinate c of `x (a, c) · W (b, c)`: the accumulator is the zero of the extended reals, which `0 + s = s` drops, and the
  transpose only names the entry (c, b) of its result as the entry (b, c) of its operand. Nothing here needs the entries
  to be finite.
-/
import Idealize.ShloMosaic.Lib.StackMember
import Idealize.ShloMosaic.Lib.KernelVsHost
import Idealize.ShloMosaic.Lib.Pipeline.Value
import Idealize.ShloMosaic.Lib.ValueIdx

noncomputable section

open scoped BigOperators

namespace Idealize.ShloMosaic.PlainProduct

open Idealize.ShloMosaic Idealize.ShloMosaic.ValueIdx

variable {m k n : Nat} {φ₁ φ₂ : FTy}

/-- The transpose of an n×k matrix, read at (c, b), is the matrix at (b, c). -/
theorem transpose_swap_apply {α : Type} (W : (⟨2, ![n, k]⟩ : Shape).Idx → α)
    (h : (⟨2, ![n, k]⟩ : Shape).Transposes [1, 0] ⟨2, ![k, n]⟩) (c : Fin k) (b : Fin n) :
    transpose ⟨2, ![k, n]⟩ [1, 0] W h (ix2 c b) = W (ix2 b c) :=
  transpose_apply [1, 0] W h (ix2 c b) (ix2 b c) fun ax => by
    match ax with
    | ⟨0, _⟩ => rfl
    | ⟨1, _⟩ => rfl

/-- A host `dot_general` whose dimension numbers are the plain product's, read at (a, b): the sum over the contracted
    coordinate of the products of the entries. -/
theorem dotGeneral_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- A kernel's `tpu.matmul` with those dimension numbers into the zero splat, read at (a, b): the same sum. -/
theorem matmul_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  rw [matmul_zero_eq_dotGeneral]
  exact dotGeneral_of_plain D hD prec A B a b

/-- THE HOST'S LINEAR LAYER at an entry: `dot_general` of the rows with the transposed weight is `∑ c, x (a, c) · W (b, c)`. -/
theorem dotGeneral_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    Host.dotGeneral D prec A (transpose ⟨2, ![k, n]⟩ [1, 0] W h) (ix2 a b) = ∑ c : Fin k, A (ix2 a c) * W (ix2 b c) := by
  rw [dotGeneral_of_plain D hD]
  exact Finset.sum_congr rfl fun c _ => by rw [transpose_swap_apply]

/-- THE KERNEL'S LINEAR LAYER at an entry: `tpu.matmul` of the rows with the transposed weight into the zero splat is the
    same sum. -/
theorem matmul_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    matmul D prec A (transpose ⟨2, ![k, n]⟩ [1, 0] W h) (constant ⟨2, ![m, n]⟩ .f32 0x00000000#32) (ix2 a b)
      = ∑ c : Fin k, A (ix2 a c) * W (ix2 b c) := by
  rw [matmul_of_plain D hD]
  exact Finset.sum_congr rfl fun c _ => by rw [transpose_swap_apply]

end Idealize.ShloMosaic.PlainProduct

end
-- ==== Proof.LibTiledSum.lean ====
/-
  A double sum taken tile by tile, and a total built up one tile at a time.

  A sum over all pairs `(a, b)`, `a` below `nA · R` and `b` below `nB · S`, can be taken tile by tile: the pairs
  are cut into `nA · nB` tiles of `R × S` pairs, tile `t` (counted row by row, so that it sits in tile row `t / nB`
  and tile column `t % nB`) holding the pairs `(R · (t / nB) + r, S · (t % nB) + s)`. Addition being commutative and
  associative, the sum of the tiles' sums is the whole sum.

  And a running total that starts from `z` plus the first term and then adds one term per step is, after step `n`,
  `z` plus the sum of the terms up to `n`; after the last step it is `z` plus the sum of all of them.
-/
import Mathlib.Algebra.BigOperators.Fin
import Mathlib.Algebra.BigOperators.Group.Finset.Basic
import Mathlib.Logic.Equiv.Fin.Basic

namespace Cert.TiledSum

open Finset

/-- Position `r` inside block `q` of `n` blocks of length `R` is below `n · R`. -/
theorem block_lt {n R q r : ℕ} (hq : q < n) (hr : r < R) : R * q + r < n * R :=
  calc R * q + r < R * q + R := Nat.add_lt_add_left hr _
    _ = R * (q + 1) := (Nat.mul_succ R q).symm
    _ ≤ R * n := Nat.mul_le_mul_left _ hq
    _ = n * R := Nat.mul_comm _ _

/-- The tile row of tile `t`, counted row by row among `nA · nB` tiles, is below `nA`. -/
theorem tileRow_lt {nA nB : ℕ} (t : Fin (nA * nB)) : t.val / nB < nA :=
  Nat.div_lt_of_lt_mul (lt_of_lt_of_eq t.isLt (Nat.mul_comm nA nB))

/-- Its tile column is below `nB`. -/
theorem tileCol_lt {nA nB : ℕ} (t : Fin (nA * nB)) : t.val % nB < nB :=
  Nat.mod_lt _ (Nat.pos_of_ne_zero fun h => by subst h; exact absurd t.isLt (by simp))

/-- Row `r` of tile `t`, as a row of the whole. -/
def rowOf {nA nB R : ℕ} (t : Fin (nA * nB)) (r : Fin R) : Fin (nA * R) :=
  ⟨R * (t.val / nB) + r.val, block_lt (tileRow_lt t) r.isLt⟩

/-- Column `s` of tile `t`, as a column of the whole. -/
def colOf {nA nB S : ℕ} (t : Fin (nA * nB)) (s : Fin S) : Fin (nB * S) :=
  ⟨S * (t.val % nB) + s.val, block_lt (tileCol_lt t) s.isLt⟩

/-- The whole double sum is the sum, over the tiles, of each tile's double sum. -/
theorem sum_eq_sum_tiles {M : Type*} [AddCommMonoid M] {nA nB R S : ℕ} (f : Fin (nA * R) → Fin (nB * S) → M) :
    ∑ a, ∑ b, f a b = ∑ t : Fin (nA * nB), ∑ r : Fin R, ∑ s : Fin S, f (rowOf t r) (colOf t s) := by
  have h1 : ∑ a, ∑ b, f a b
      = ∑ i : Fin nA, ∑ r : Fin R, ∑ j : Fin nB, ∑ s : Fin S, f (finProdFinEquiv (i, r)) (finProdFinEquiv (j, s)) := by
    refine (Equiv.sum_comp (finProdFinEquiv (m := nA) (n := R)) fun a => ∑ b, f a b).symm.trans ?_
    rw [Fintype.sum_prod_type]
    refine Finset.sum_congr rfl fun i _ => Finset.sum_congr rfl fun r _ => ?_
    refine (Equiv.sum_comp (finProdFinEquiv (m := nB) (n := S)) fun b => f (finProdFinEquiv (i, r)) b).symm.trans ?_
    rw [Fintype.sum_prod_type]
  have h2 : ∑ t : Fin (nA * nB), ∑ r : Fin R, ∑ s : Fin S, f (rowOf t r) (colOf t s)
      = ∑ i : Fin nA, ∑ j : Fin nB, ∑ r : Fin R, ∑ s : Fin S, f (finProdFinEquiv (i, r)) (finProdFinEquiv (j, s)) := by
    refine (Equiv.sum_comp (finProdFinEquiv (m := nA) (n := nB))
      fun t => ∑ r : Fin R, ∑ s : Fin S, f (rowOf t r) (colOf t s)).symm.trans ?_
    rw [Fintype.sum_prod_type]
    refine Finset.sum_congr rfl fun i _ => Finset.sum_congr rfl fun j _ => ?_
    refine Finset.sum_congr rfl fun r _ => Finset.sum_congr rfl fun s _ => ?_
    have hpos : 0 < nB := Nat.pos_of_ne_zero fun h => by subst h; exact j.elim0
    have hi : (finProdFinEquiv (i, j)).val / nB = i.val := by
      rw [finProdFinEquiv_apply_val, Nat.add_mul_div_left _ _ hpos, Nat.div_eq_of_lt j.isLt, Nat.zero_add]
    have hj : (finProdFinEquiv (i, j)).val % nB = j.val := by
      rw [finProdFinEquiv_apply_val, Nat.add_mul_mod_self_left, Nat.mod_eq_of_lt j.isLt]
    have er : rowOf (finProdFinEquiv (i, j)) r = finProdFinEquiv (i, r) := Fin.ext (by
      show R * ((finProdFinEquiv (i, j)).val / nB) + r.val = (finProdFinEquiv (i, r)).val
      rw [hi, finProdFinEquiv_apply_val, Nat.add_comm])
    have ec : colOf (finProdFinEquiv (i, j)) s = finProdFinEquiv (j, s) := Fin.ext (by
      show S * ((finProdFinEquiv (i, j)).val % nB) + s.val = (finProdFinEquiv (j, s)).val
      rw [hj, finProdFinEquiv_apply_val, Nat.add_comm])
    rw [er, ec]
  rw [h1, h2]
  exact Finset.sum_congr rfl fun i _ => Finset.sum_comm

/-- A running total: `acc 0 = z + T 0` and `acc (n + 1) = acc n + T (n + 1)` give `acc n = z + ∑_{k ≤ n} T k`. -/
theorem running_total {M : Type*} [AddCommMonoid M] {N : ℕ} (T : Fin N → M) (z : M) (acc : (n : ℕ) → n < N → M)
    (h0 : ∀ h : 0 < N, acc 0 h = z + T ⟨0, h⟩)
    (hs : ∀ (n : ℕ) (h : n + 1 < N), acc (n + 1) h = acc n (Nat.lt_of_succ_lt h) + T ⟨n + 1, h⟩) :
    ∀ (n : ℕ) (h : n < N), acc n h = z + ∑ k : Fin (n + 1), T ⟨k.val, lt_of_lt_of_le k.isLt h⟩
  | 0, h => by rw [h0 h, Fin.sum_univ_one]; rfl
  | n + 1, h => by
    rw [hs n h, running_total T z acc h0 hs n (Nat.lt_of_succ_lt h), Fin.sum_univ_castSucc (n := n + 1), add_assoc]
    rfl

/-- After the last step the running total is `z` plus the sum of all the terms. -/
theorem running_total_last {M : Type*} [AddCommMonoid M] {N : ℕ} (T : Fin (N + 1) → M) (z : M)
    (acc : (n : ℕ) → n < N + 1 → M) (h0 : ∀ h : 0 < N + 1, acc 0 h = z + T ⟨0, h⟩)
    (hs : ∀ (n : ℕ) (h : n + 1 < N + 1), acc (n + 1) h = acc n (Nat.lt_of_succ_lt h) + T ⟨n + 1, h⟩) :
    acc N (Nat.lt_succ_self N) = z + ∑ t, T t :=
  running_total T z acc h0 hs N (Nat.lt_succ_self N)

end Cert.TiledSum
-- ==== Proof.TileValue.lean ====
/-
  One tile and the running total, read on the extended reals.

  At the exact interpretation an entry `(r, c)` of a tile's table is
  `exp (-2 · max (|R_r|² + |C_c|² - 2 · ⟨R_r, C_c⟩) 0)` where the row's number is below the column's and zero
  elsewhere: the narrowing of the operands to the matrix unit's format is the identity, the product into a zero
  accumulator is the sum of the products, a row sum from the zero word is the sum of the row.  A tile's total —
  along each row, then down the column of row totals — is the sum over all its pairs, and the running total over
  the sixteen column tiles is zero plus the sum of the sixteen totals.
-/
import proofs.«100178_j43284680409440_1_alg».proof.Proof.Tile
import proofs.«100178_j43284680409440_1_alg».proof.Proof.LibWholeTable
import proofs.«100178_j43284680409440_1_alg».proof.Proof.LibPlainProduct
import proofs.«100178_j43284680409440_1_alg».proof.Proof.LibTiledSum
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.TileValue

open Idealize.ShloMosaic Idealize.ShloMosaic.ValueIdx Idealize.SL.Sem
open Cert.KernelIdeal Cert.KernelIdeal.Tile

/-- The squared norm of row `r` of a block. -/
theorem rowSq_apply (v : Vec Ideal S512x512 .f32) (r : Fin 512) :
    rowSq v (ix2 r (0 : Fin 1)) = ∑ k : Fin 512, v (ix2 r k) * v (ix2 r k) := by
  unfold rowSq
  rw [Cert.ColumnForms.shapeCast_a_a1_apply, Cert.RowForms.multiReduction_add_rows]
  rfl

/-- The printed dimension numbers are those of the plain matrix product. -/
theorem dims_plain : dot_S512x512_S512x512_S512x512_1_0_0_1_n_n = DotDims.plain 512 512 512 := rfl

/-- The inner product of row `r` of the row block with row `c` of the column block. -/
theorem gramTile_apply (rb : FVec Ideal S512x512 .bf16) (xc : Vec Ideal S512x512 .f32) (r c : Fin 512) :
    gramTile rb xc (ix2 r c) = ∑ k : Fin 512, rb (ix2 r k) * xc (ix2 c k) := by
  unfold gramTile
  rw [PlainProduct.matmul_transposed_apply _ dims_plain]
  rfl

/-- The row numbers copied along the columns read the row's number. -/
theorem rowNo_apply (ri : IVec S512x1 32) (r c : Fin 512) : rowNo ri (ix2 r c) = ri (ix2 r (0 : Fin 1)) :=
  Cert.ColumnForms.broadcastTo_a1_ab_apply _ _ r c

/-- Column `c` of the tile that starts at `off` has the number `off + c`. -/
theorem colNo_apply (off : BitVec 32) (r c : Fin 512) : colNo off (ix2 r c) = IntOp.addi off (BitVec.ofNat 32 c.val) := by
  unfold colNo
  rw [broadcastTo_1b_ab_apply]
  show IntOp.addi off (iota .tc S1x512 32 [1] _ (ix2 (0 : Fin 1) c)) = _
  rw [iota_single_apply]

/-- One entry of a tile's table. -/
theorem tileTable_apply (rb : FVec Ideal S512x512 .bf16) (rs : FVec Ideal S512x1 .f32) (ri : IVec S512x1 32)
    (xc : Vec Ideal S512x512 .f32) (off : BitVec 32) (r c : Fin 512) :
    tileTable rb rs ri xc off (ix2 r c)
      = Scalar.select (IntOp.cmpi .slt (ri (ix2 r (0 : Fin 1))) (IntOp.addi off (BitVec.ofNat 32 c.val)))
          (Ideal.exp (Ideal.ofBits .f32 0xC0000000#32
            * max (rs (ix2 r (0 : Fin 1)) + (∑ k : Fin 512, xc (ix2 c k) * xc (ix2 c k))
                - Ideal.ofBits .f32 0x40000000#32 * ∑ k : Fin 512, rb (ix2 r k) * xc (ix2 c k))
              (Ideal.ofBits .f32 0x00000000#32)))
          (Ideal.ofBits .f32 0x00000000#32) := by
  have step : tileTable rb rs ri xc off (ix2 r c)
      = Scalar.select (IntOp.cmpi .slt (rowNo ri (ix2 r c)) (colNo off (ix2 r c)))
          (Ideal.exp (Ideal.ofBits .f32 0xC0000000#32
            * max (broadcastTo S512x512 rs Facts₀.broadcasts_S512x1_S512x512 (ix2 r c)
                + broadcastTo S512x512 (transpose S1x512 [1, 0] (rowSq xc) Facts₀.transposes_S512x1_p1_0_S1x512)
                    Facts₀.broadcasts_S1x512_S512x512 (ix2 r c)
                - Ideal.ofBits .f32 0x40000000#32 * gramTile rb xc (ix2 r c))
              (Ideal.ofBits .f32 0x00000000#32)))
          (Ideal.ofBits .f32 0x00000000#32) := rfl
  rw [step, rowNo_apply, colNo_apply, Cert.ColumnForms.broadcastTo_a1_ab_apply, Cert.RowForms.rowOfColumn_apply,
    rowSq_apply, gramTile_apply]

/-- A table's total is the sum over all its pairs. -/
theorem tableTotal_apply (e : FVec Ideal S512x512 .f32) :
    tableTotal e (ix2 (0 : Fin 1) (0 : Fin 1)) = ∑ p : Fin 512 × Fin 512, e (ix2 p.1 p.2) := by
  unfold tableTotal
  rw [Cert.WholeTable.cell_apply, Cert.WholeTable.tableSum_apply]

/-- A tile's total is the sum of its table's entries. -/
theorem tile_apply (rb : FVec Ideal S512x512 .bf16) (rs : FVec Ideal S512x1 .f32) (ri : IVec S512x1 32)
    (xc : Vec Ideal S512x512 .f32) (off : BitVec 32) :
    tile rb rs ri xc off (ix2 (0 : Fin 1) (0 : Fin 1))
      = ∑ p : Fin 512 × Fin 512, tileTable rb rs ri xc off (ix2 p.1 p.2) :=
  tableTotal_apply _

/-- A point's total is zero plus the sum of its sixteen tiles' totals. -/
theorem pointTotal_apply (i : grid0.Coords) (r : Vec Ideal S512x512 .f32) (col : Fin 16 → Vec Ideal S512x512 .f32) :
    pointTotal i r col (ix2 (0 : Fin 1) (0 : Fin 1))
      = Ideal.ofBits .f32 0x00000000#32
        + ∑ j : Fin 16, tile (rowNarrow r) (rowSq r) (Gen.k0_pay5 i) (col j) (offOf j) (ix2 (0 : Fin 1) (0 : Fin 1)) :=
  Cert.TiledSum.running_total_last (N := 15)
    (fun j : Fin 16 => tile (rowNarrow r) (rowSq r) (Gen.k0_pay5 i) (col j) (offOf j) (ix2 (0 : Fin 1) (0 : Fin 1)))
    (Ideal.ofBits .f32 0x00000000#32)
    (fun n h => chain (rowNarrow r) (rowSq r) (Gen.k0_pay5 i) col n h (ix2 (0 : Fin 1) (0 : Fin 1)))
    (fun h => rfl) (fun n h => rfl)

end Cert.KernelIdeal.TileValue

end
-- ==== Proof.LibBlockedSum.lean ====
/-
  A finite sum taken block by block: an axis of `n = nb · bs` positions cut into `nb` consecutive blocks of `bs`.

  `blkIdx hn bs k q` is position `q` of block `k` (that is `bs · k + q`), `blockSum hn bs g k` the sum of `g` over block
  `k`, and `partialSum hn bs g k` the sum over the blocks `0 … k`.  In any commutative monoid the partial sums obey the
  recurrence of an accumulator that adds one block per step (`partialSum_zero`, `partialSum_succ`), and the partial
  sum after the last block is the sum over the whole axis (`partialSum_last`): the pairs (block, position in the
  block) enumerate the axis exactly once.  Only associativity and commutativity of the addition are used, so all of
  this holds on the extended reals as it stands, with no finiteness assumption.  This is the arithmetic of a matrix
  product whose contracted axis is visited block by block into an accumulator.
-/
import Mathlib.Algebra.BigOperators.Fin
import Mathlib.Algebra.BigOperators.Intervals
import Mathlib.Logic.Equiv.Fin.Basic

namespace BlockedSum

/-- Position `q` of block `k` on an axis of `n` positions cut into blocks of `bs` (reduced modulo `n` so that it is a
    position for every `k`; for a block that exists nothing is reduced: `blkIdx_val`). -/
def blkIdx {n : ℕ} (hn : 0 < n) (bs : ℕ) (k : ℕ) (q : Fin bs) : Fin n := ⟨(bs * k + q.val) % n, Nat.mod_lt _ hn⟩

theorem blkIdx_val {n nb bs : ℕ} (hn : 0 < n) (h : nb * bs = n) {k : ℕ} (hk : k < nb) (q : Fin bs) :
    (blkIdx hn bs k q).val = bs * k + q.val := by
  show (bs * k + q.val) % n = _
  apply Nat.mod_eq_of_lt
  have hq := q.isLt
  calc bs * k + q.val < bs * k + bs := by omega
    _ = bs * (k + 1) := (Nat.mul_succ bs k).symm
    _ ≤ bs * nb := Nat.mul_le_mul_left bs hk
    _ = n := by rw [Nat.mul_comm]; exact h

/-- The pairs (block, position in the block) are the positions of the axis. -/
def blkEquiv {n nb bs : ℕ} (h : nb * bs = n) : Fin nb × Fin bs ≃ Fin n := finProdFinEquiv.trans (finCongr h)

theorem blkEquiv_apply {n nb bs : ℕ} (hn : 0 < n) (h : nb * bs = n) (k : Fin nb) (q : Fin bs) :
    blkEquiv h (k, q) = blkIdx hn bs k.val q := by
  apply Fin.ext
  rw [blkIdx_val hn h k.isLt]
  show q.val + bs * k.val = _
  omega

variable {M : Type*} [AddCommMonoid M] {n : ℕ}

/-- The sum of `g` over block `k`. -/
def blockSum (hn : 0 < n) (bs : ℕ) (g : Fin n → M) (k : ℕ) : M := ∑ q : Fin bs, g (blkIdx hn bs k q)

/-- The sum of `g` over the blocks `0 … k`. -/
def partialSum (hn : 0 < n) (bs : ℕ) (g : Fin n → M) (k : ℕ) : M := ∑ k' ∈ Finset.range (k + 1), blockSum hn bs g k'

theorem partialSum_zero (hn : 0 < n) (bs : ℕ) (g : Fin n → M) : partialSum hn bs g 0 = blockSum hn bs g 0 := by
  unfold partialSum
  rw [Finset.sum_range_one]

theorem partialSum_succ (hn : 0 < n) (bs : ℕ) (g : Fin n → M) (k : ℕ) :
    partialSum hn bs g (k + 1) = partialSum hn bs g k + blockSum hn bs g (k + 1) := by
  unfold partialSum
  rw [Finset.sum_range_succ]

/-- All the blocks together are the whole axis. -/
theorem partialSum_last {nb bs : ℕ} (hn : 0 < n) (h : nb * bs = n) (g : Fin n → M) {k : ℕ} (hk : k + 1 = nb) :
    partialSum hn bs g k = ∑ i : Fin n, g i := by
  unfold partialSum
  rw [hk]
  calc ∑ k' ∈ Finset.range nb, blockSum hn bs g k'
      = ∑ k' : Fin nb, blockSum hn bs g k'.val := (Fin.sum_univ_eq_sum_range (fun k' => blockSum hn bs g k') nb).symm
    _ = ∑ k' : Fin nb, ∑ q : Fin bs, g (blkEquiv h (k', q)) := by simp only [blockSum, blkEquiv_apply hn h]
    _ = ∑ p : Fin nb × Fin bs, g (blkEquiv h p) := (Fintype.sum_prod_type (fun p : Fin nb × Fin bs => g (blkEquiv h p))).symm
    _ = ∑ i : Fin n, g i := (blkEquiv h).sum_comp g

end BlockedSum
-- ==== Proof.Spec.lean ====
/-
  The uniformity loss of 8192 points in 512 dimensions, as one function of the point array, and the law that lets
  its sum over all pairs be taken tile by tile.

  For points `x_0 … x_8191` the loss is `log ((∑_{i < j} exp (-2 · d(i, j))) / P)` with
  `d(i, j) = max (|x_i|² + |x_j|² - 2 · ⟨x_i, x_j⟩) 0` and `P` the number of pairs `i < j`.  The sum is written
  over ALL pairs `(i, j)`, a pair with `i ≥ j` contributing zero.  Everything is stated on the extended reals with
  the exact operations, and the float constants (2, -2, 0, P) are kept as their words.

  The 8192 row numbers are 16 runs of 512, so the sum over all pairs is the sum, over the 16 × 16 tiles, of each
  tile's 512 × 512 pairs.  Only the commutativity and associativity of addition are used: nothing needs the
  entries to be finite.
-/
import Idealize.ShloMosaic.PureOps.Ideal
import Idealize.ShloMosaic.Lib.ValueIdx
import proofs.«100178_j43284680409440_1_alg».proof.Proof.LibBlockedSum

noncomputable section

open scoped BigOperators

namespace Cert.PairLoss

open Idealize.ShloMosaic Idealize.ShloMosaic.ValueIdx

/-- The point array: entry `(i, k)` is coordinate `k` of point `i`. -/
abbrev Points := (⟨2, ![8192, 512]⟩ : Shape).Idx → EReal

/-- The squared norm of point `i`. -/
def sqNorm (x : Points) (i : Fin 8192) : EReal := ∑ k : Fin 512, x (ix2 i k) * x (ix2 i k)

/-- The inner product of points `i` and `j`. -/
def inner (x : Points) (i j : Fin 8192) : EReal := ∑ k : Fin 512, x (ix2 i k) * x (ix2 j k)

/-- The squared distance of points `i` and `j` by the polarization identity, floored at zero. -/
def dist2 (x : Points) (i j : Fin 8192) : EReal :=
  max (sqNorm x i + sqNorm x j - Ideal.ofBits .f32 0x40000000#32 * inner x i j) (Ideal.ofBits .f32 0x00000000#32)

/-- The one-bit word saying that `i` comes before `j`. -/
def earlier (i j : ℕ) : BitVec 1 := BitVec.ofBool (decide (i < j))

/-- What the pair `(i, j)` contributes: `exp (-2 · d(i, j))` when `i < j`, zero otherwise. -/
def weight (x : Points) (i j : Fin 8192) : EReal :=
  Scalar.select (earlier i.val j.val) (Ideal.exp (Ideal.ofBits .f32 0xC0000000#32 * dist2 x i j))
    (Ideal.ofBits .f32 0x00000000#32)

/-- The sum of the contributions of all pairs. -/
def total (x : Points) : EReal := ∑ i : Fin 8192, ∑ j : Fin 8192, weight x i j

/-- The loss: the logarithm of the mean contribution of a pair `i < j`. -/
def loss (x : Points) : EReal := Ideal.log (Ideal.div (total x) (Ideal.ofBits .f32 0x4BFFF800#32))

/-- Row `r` of run `t`: the row `512 t + r` of the whole. -/
def rowAt (t : Fin 16) (r : Fin 512) : Fin 8192 := ⟨512 * t.val + r.val, by have := t.isLt; have := r.isLt; omega⟩

theorem rowAt_val (t : Fin 16) (r : Fin 512) : (rowAt t r).val = 512 * t.val + r.val := rfl

/-- A sum over the 8192 rows is the sum over the 16 runs of the sum over each run's 512 rows. -/
theorem sum_runs {M : Type*} [AddCommMonoid M] (g : Fin 8192 → M) :
    ∑ i, g i = ∑ t : Fin 16, ∑ r : Fin 512, g (rowAt t r) := by
  have h : 16 * 512 = 8192 := rfl
  refine ((BlockedSum.blkEquiv h).sum_comp g).symm.trans ?_
  rw [Fintype.sum_prod_type]
  refine Finset.sum_congr rfl fun t _ => Finset.sum_congr rfl fun r _ => congrArg g (Fin.ext ?_)
  rw [BlockedSum.blkEquiv_apply (by decide) h, BlockedSum.blkIdx_val (by decide) h t.isLt]
  rfl

/-- The sum over all pairs, tile by tile. -/
theorem total_by_tiles (x : Points) :
    total x = ∑ t : Fin 16, ∑ j : Fin 16, ∑ r : Fin 512, ∑ c : Fin 512, weight x (rowAt t r) (rowAt j c) := by
  unfold total
  rw [sum_runs]
  refine Finset.sum_congr rfl fun t _ => ?_
  rw [Finset.sum_congr rfl fun r _ => sum_runs (fun j => weight x (rowAt t r) j)]
  exact Finset.sum_comm

end Cert.PairLoss

end
-- ==== Proof.LibWordOrder.lean ====
/-
  Signed comparisons and sums of the 32-bit words of natural numbers.

  A mask such as "row number below column number" is computed on 32-bit words: the numbers are built by adding and
  multiplying the words of smaller numbers and then compared as signed integers.  Taking the word of a number
  commutes with addition and multiplication (both are arithmetic modulo `2³²`), and for numbers below `2³¹` the
  signed order of the words is the order of the numbers.  A comparison's one-bit word, used to choose between
  "false" and "true", is the negated comparison.
-/
import Idealize.ShloMosaic.Lib.WordArith

namespace Cert.WordOrder

open Idealize.ShloMosaic

/-- The word of a sum is the sum of the words. -/
theorem addi_ofNat (a b : ℕ) : IntOp.addi (BitVec.ofNat 32 a) (BitVec.ofNat 32 b) = BitVec.ofNat 32 (a + b) :=
  (BitVec.ofNat_add a b).symm

/-- The word of a product is the product of the words. -/
theorem muli_ofNat (a b : ℕ) : IntOp.muli (BitVec.ofNat 32 a) (BitVec.ofNat 32 b) = BitVec.ofNat 32 (a * b) :=
  (BitVec.ofNat_mul a b).symm

/-- Signed `<` on the words of two numbers below `2³¹` is `<` on the numbers. -/
theorem slt_ofNat (a b : ℕ) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  congr 1
  rw [BitVec.slt, WordArith.toInt_ofNat_small a ha, WordArith.toInt_ofNat_small b hb]
  simp

/-- Signed `≤` on the words of two numbers below `2³¹` is `≤` on the numbers. -/
theorem sle_ofNat (a b : ℕ) (ha : a < 2 ^ 31) (hb : b < 2 ^ 31) :
    IntOp.cmpi .sle (BitVec.ofNat 32 a) (BitVec.ofNat 32 b) = BitVec.ofBool (decide (a ≤ b)) := by
  show BitVec.ofBool ((BitVec.ofNat 32 a).sle (BitVec.ofNat 32 b)) = _
  congr 1
  rw [BitVec.sle, WordArith.toInt_ofNat_small a ha, WordArith.toInt_ofNat_small b hb]
  simp

/-- Signed `>` likewise. -/
theorem sgt_ofNat (a b : ℕ) (ha : a < 2 ^ 31) (hb : b < 2 ^ 31) :
    IntOp.cmpi .sgt (BitVec.ofNat 32 a) (BitVec.ofNat 32 b) = BitVec.ofBool (decide (b < a)) :=
  slt_ofNat b a hb ha

/-- Signed `≥` likewise. -/
theorem sge_ofNat (a b : ℕ) (ha : a < 2 ^ 31) (hb : b < 2 ^ 31) :
    IntOp.cmpi .sge (BitVec.ofNat 32 a) (BitVec.ofNat 32 b) = BitVec.ofBool (decide (b ≤ a)) :=
  sle_ofNat b a hb ha

/-- Choosing "false" where a condition holds and "true" elsewhere is the negated condition. -/
theorem select_false_true (p : Bool) : Scalar.select (BitVec.ofBool p) (0#1) (1#1) = BitVec.ofBool (!p) := by
  cases p <;> rfl

end Cert.WordOrder
-- ==== Proof.PointValue.lean ====
/-
  What one grid point adds, in terms of the whole point array.

  At grid point `t` the row block is rows `512 t … 512 t + 511` of the input and column block `j` is rows
  `512 j … 512 j + 511`; the row's number is the word of `512 t + r` and the column's the word of `512 j + c`,
  both far below `2³¹`, so the signed comparison of the words is the comparison of the numbers.  Hence entry
  `(r, c)` of tile `j` at point `t` is the contribution of the pair `(512 t + r, 512 j + c)`, and the point adds
  zero plus the sum of the contributions of its sixteen tiles.
-/
import proofs.«100178_j43284680409440_1_alg».proof.Proof.TileValue
import proofs.«100178_j43284680409440_1_alg».proof.Proof.Spec
import proofs.«100178_j43284680409440_1_alg».proof.Proof.Gen.KernelIdeal.Launch
import proofs.«100178_j43284680409440_1_alg».proof.Proof.LibWordOrder

noncomputable section

open scoped BigOperators

namespace Cert.KernelIdeal.PointValue

open Idealize.ShloMosaic Idealize.ShloMosaic.ValueIdx Idealize.SL.Sem
open Cert.KernelIdeal Cert.KernelIdeal.Gen Cert.KernelIdeal.Tile Cert.KernelIdeal.TileValue Cert.PairLoss

/-- The grid has one axis: a point's coordinate is its number. -/
theorem coord0 : ∀ t : Fin cfg0.N, ((grid0.coords t) 0).val = t.val :=
  (by decide +kernel : ∀ t : Fin grid0.N, ((grid0.coords t) 0).val = t.val)

/-- A grid point as the number of its run of 512 rows. -/
def runOf (t : Fin cfg0.N) : Fin 16 := ⟨t.val, lt_of_lt_of_eq t.isLt (show cfg0.N = 16 from N_0)⟩

/-! ## Row and column numbers as words -/

/-- The word `T · 512 + R` for a run number and a position in the run. -/
theorem rowWord (T R : ℕ) (hT : T < 16) (hR : R < 512) :
    IntOp.addi (Scalar.muli (BitVec.ofNat 32 T) 512#32) (BitVec.ofNat 32 R) = BitVec.ofNat 32 (512 * T + R) := by
  show BitVec.ofNat 32 T * 512#32 + BitVec.ofNat 32 R = _
  apply BitVec.eq_of_toNat_eq
  simp only [BitVec.toNat_add, BitVec.toNat_mul, BitVec.toNat_ofNat]
  omega

/-- The word `512 J + C` for a tile's first column and a position in the tile. -/
theorem colWord (J C : ℕ) (hJ : J < 16) (hC : C < 512) :
    IntOp.addi (BitVec.ofNat 32 (512 * J)) (BitVec.ofNat 32 C) = BitVec.ofNat 32 (512 * J + C) := by
  show BitVec.ofNat 32 (512 * J) + BitVec.ofNat 32 C = _
  apply BitVec.eq_of_toNat_eq
  simp only [BitVec.toNat_add, BitVec.toNat_ofNat]
  omega

/-- The signed comparison of the words of two small numbers is the comparison of the numbers. -/
theorem slt_small (a b : ℕ) (ha : a < 2 ^ 31) (hb : b < 2 ^ 31) :
    IntOp.cmpi .slt (BitVec.ofNat 32 a) (BitVec.ofNat 32 b) = earlier a b :=
  Cert.WordOrder.slt_ofNat a b ha hb

/-! ## The blocks of a point -/

/-- Entry `(r, k)` of the row block of point `t` is entry `(512 t + r, k)` of the input. -/
theorem rowBlock_apply (t : Fin cfg0.N) (x : Vec Ideal S8192x512 .f32) (r k : Fin 512) :
    rowBlock (grid0.coords t) x (ix2 r k) = x (ix2 (rowAt (runOf t) r) k) := by
  unfold rowBlock
  refine congrArg x (funext fun a => Fin.ext ?_)
  match a with
  | ⟨0, _⟩ =>
    show k0_off1 (grid0.coords t) 0 + 1 * r.val = 512 * t.val + r.val
    rw [k0_off1_eq, ← coord0 t]
    show 512 * ((grid0.coords t) 0).val + 1 * r.val = _
    omega
  | ⟨1, _⟩ =>
    show k0_off1 (grid0.coords t) 1 + 1 * k.val = k.val
    rw [k0_off1_eq]
    show 0 + 1 * k.val = k.val
    omega

/-- Entry `(c, k)` of column block `j` is entry `(512 j + c, k)` of the input. -/
theorem colBlock_apply (x : Vec Ideal S8192x512 .f32) (j : Fin 16) (c k : Fin 512) :
    colBlock x j (ix2 c k) = x (ix2 (rowAt j c) k) := by
  unfold colBlock
  refine congrArg x (funext fun a => Fin.ext ?_)
  match a with
  | ⟨0, _⟩ => show 512 * j.val + 1 * c.val = 512 * j.val + c.val; omega
  | ⟨1, _⟩ => show 0 + 1 * k.val = k.val; omega

/-- The narrowing to the matrix unit's format changes nothing. -/
theorem rowNarrow_apply (v : Vec Ideal S512x512 .f32) (y : S512x512.Idx) : rowNarrow v y = v y := rfl

/-- The number of row `r` at point `t`, as the body computes it. -/
theorem rowNumber (t : Fin cfg0.N) (r : Fin 512) :
    k0_pay5 (grid0.coords t) (ix2 r (0 : Fin 1)) = BitVec.ofNat 32 (512 * t.val + r.val) := by
  have h : k0_pay5 (grid0.coords t) (ix2 r (0 : Fin 1))
      = IntOp.addi (Scalar.muli (BitVec.ofNat 32 ((grid0.coords t) 0).val) 512#32)
          (iota .tc S512x1 32 [0] Facts₀.iota_S512x1_d0_w32 (ix2 r (0 : Fin 1))) := rfl
  rw [h, iota_single_apply, coord0 t]
  exact rowWord t.val r.val (lt_of_lt_of_eq t.isLt (show cfg0.N = 16 from N_0)) r.isLt

/-! ## A tile's entries are the pairs' contributions -/

/-- Entry `(r, c)` of tile `j` at point `t` is the contribution of the pair `(512 t + r, 512 j + c)`. -/
theorem entry (t : Fin cfg0.N) (x : Vec Ideal S8192x512 .f32) (j : Fin 16) (r c : Fin 512) :
    tileTable (rowNarrow (rowBlock (grid0.coords t) x)) (rowSq (rowBlock (grid0.coords t) x)) (k0_pay5 (grid0.coords t))
        (colBlock x j) (offOf j) (ix2 r c)
      = weight x (rowAt (runOf t) r) (rowAt j c) := by
  have ht : t.val < 16 := lt_of_lt_of_eq t.isLt (show cfg0.N = 16 from N_0)
  have hj := j.isLt
  have hr := r.isLt
  have hc := c.isLt
  rw [tileTable_apply, rowNumber, rowSq_apply]
  rw [show IntOp.addi (offOf j) (BitVec.ofNat 32 c.val) = BitVec.ofNat 32 (512 * j.val + c.val) from colWord j.val c.val hj hc]
  rw [slt_small _ _ (by omega) (by omega)]
  unfold PairLoss.weight PairLoss.dist2 PairLoss.sqNorm PairLoss.inner
  simp only [rowBlock_apply, colBlock_apply, rowNarrow_apply]
  rfl

/-- What point `t` adds to the carried total: zero plus the contributions of its sixteen tiles. -/
theorem point_value (t : Fin cfg0.N) (x : Vec Ideal S8192x512 .f32) :
    pointTotal (grid0.coords t) (rowBlock (grid0.coords t) x) (colBlock x) (ix2 (0 : Fin 1) (0 : Fin 1))
      = Ideal.ofBits .f32 0x00000000#32
        + ∑ j : Fin 16, ∑ r : Fin 512, ∑ c : Fin 512, weight x (rowAt (runOf t) r) (rowAt j c) := by
  rw [pointTotal_apply]
  refine congrArg (_ + ·) (Finset.sum_congr rfl fun j _ => ?_)
  rw [tile_apply, Fintype.sum_prod_type]
  exact Finset.sum_congr rfl fun r _ => Finset.sum_congr rfl fun c _ => entry t x j r c

end Cert.KernelIdeal.PointValue

end
-- ==== Proof.Accum.lean ====
/-
  The carried total over the grid, and what the last point writes.

  The input is staged whole, so at every grid point the body sees the whole point array.  The scratch cell is zeroed
  at the first point and every point adds its own total to what it finds there, so after point `n` the cell holds
  zero plus the totals of the points `0 … n`; after the last point that is the sum of the contributions of all
  pairs, taken tile by tile.  The last point then stores the logarithm of that sum's quotient by the number of pairs:
  the loss.
-/
import proofs.«100178_j43284680409440_1_alg».proof.Proof.Pieces
import proofs.«100178_j43284680409440_1_alg».proof.Proof.PointValue
import proofs.«100178_j43284680409440_1_alg».proof.Proof.Gen.KernelIdeal.Frame
import Idealize.ShloMosaic.Lib.Pipeline.Value

set_option maxRecDepth 16384

noncomputable section

open scoped BigOperators
open Idealize.ShloMosaic Idealize.ShloMosaic.TcCoe Idealize.ShloMosaic.ValueIdx Idealize.SL.Sem

namespace Cert.KernelIdeal.Accum

open Cert.KernelIdeal Cert.KernelIdeal.Gen Cert.KernelIdeal.Tile Cert.KernelIdeal.TileValue Cert.KernelIdeal.PointValue
open Cert.PairLoss

variable (m : (ℓ : Loc nD τ sig) → Buf (Elt Ideal) ℓ)

/-- The point array as the region finds it on core `c`. -/
abbrev pts (c : Dev nD) : Vec Ideal S8192x512 .f32 := V m c main_arg0

/-- The input window's block never moves: its index is (0, 0) at every point. -/
theorem index0 : ∀ t : Fin cfg0.N, win0_0.index t 0 = 0 ∧ win0_0.index t 1 = 0 :=
  (by decide +kernel : ∀ t : Fin grid0.N, win0_0.index t 0 = 0 ∧ win0_0.index t 1 = 0)

/-- At every point the staged input block is the whole point array. -/
theorem iblk_eq (c : Dev nD) (t : Fin cfg0.N) : (iblk m c 0 t : Vec Ideal S8192x512 .f32) = pts m c := by
  funext y
  unfold iblk
  rw [View.read_apply]
  show V m c main_arg0 _ = V m c main_arg0 y
  congr 1
  funext a
  apply Fin.ext
  match a with
  | ⟨0, _⟩ => show win0_0.index t 0 * 8192 + 1 * (y 0).val = (y 0).val; rw [(index0 t).1]; omega
  | ⟨1, _⟩ => show win0_0.index t 1 * 512 + 1 * (y 1).val = (y 1).val; rw [(index0 t).2]; omega

/-- What a point leaves in the cell, at the cell's one index: what it found plus its own total. -/
theorem carried_apply (i : grid0.Coords) (x : Vec Ideal S8192x512 .f32) (xs : Vec Ideal S1x1 .f32) :
    carried i x xs (ix2 (0 : Fin 1) (0 : Fin 1))
      = xs (ix2 (0 : Fin 1) (0 : Fin 1)) + pointTotal i (rowBlock i x) (colBlock x) (ix2 (0 : Fin 1) (0 : Fin 1)) := by
  unfold carried
  rw [shapeCast_self]
  rfl

/-- The zero the first point stores. -/
theorem zero_apply : (k0_pay2 : FVec Ideal S1x1 .f32) (ix2 (0 : Fin 1) (0 : Fin 1)) = Ideal.ofBits .f32 0x00000000#32 := by
  show shapeCast S1x1 (broadcast S1x1 (Scalar.ofBits (F := Ideal) .f32 0x00000000#32)) Facts₀.shapeCasts_S1x1_S1x1
    (ix2 (0 : Fin 1) (0 : Fin 1)) = _
  rw [shapeCast_self]
  rfl

/-- The contributions of the sixteen tiles of run `t`, with the zero the point's own total starts from. -/
def runTotal (x : Points) (t : Fin 16) : EReal :=
  Ideal.ofBits .f32 0x00000000#32 + ∑ j : Fin 16, ∑ r : Fin 512, ∑ c : Fin 512, weight x (rowAt t r) (rowAt j c)

/-- After point `n` the cell holds zero plus the totals of the points `0 … n`. -/
theorem scratch_after (c : Dev nD) : ∀ (n : ℕ) (h : n < cfg0.N),
    (outsAt0 m c n h).2 (ix2 (0 : Fin 1) (0 : Fin 1))
      = Ideal.ofBits .f32 0x00000000#32
        + ∑ k : Fin (n + 1), runTotal (pts m c) (runOf ⟨k.val, lt_of_lt_of_le k.isLt h⟩) := by
  refine Cert.TiledSum.running_total (fun t : Fin cfg0.N => runTotal (pts m c) (runOf t)) (Ideal.ofBits .f32 0x00000000#32)
    (fun n h => (outsAt0 m c n h).2 (ix2 (0 : Fin 1) (0 : Fin 1))) ?_ ?_
  · intro h
    show (outsAt0 m c (⟨0, h⟩ : Fin cfg0.N).val (⟨0, h⟩ : Fin cfg0.N).isLt).2 (ix2 (0 : Fin 1) (0 : Fin 1)) = _
    rw [outsAt0_A m c ⟨0, h⟩ rfl (by dsimp only; omega)]
    dsimp only
    rw [Pieces.scratch_A, carried_apply, iblk_eq, zero_apply, point_value]
    rfl
  · intro n h
    have hN : cfg0.N = 16 := N_0
    have h0 : ¬(⟨n + 1, h⟩ : Fin cfg0.N).val % 16 = 0 := by dsimp only; omega
    show (outsAt0 m c (⟨n + 1, h⟩ : Fin cfg0.N).val (⟨n + 1, h⟩ : Fin cfg0.N).isLt).2 (ix2 (0 : Fin 1) (0 : Fin 1))
      = (outsAt0 m c n (Nat.lt_of_succ_lt h)).2 (ix2 (0 : Fin 1) (0 : Fin 1)) + runTotal (pts m c) (runOf ⟨n + 1, h⟩)
    by_cases h1 : (⟨n + 1, h⟩ : Fin cfg0.N).val % 16 = 15
    · rw [outsAt0_C m c ⟨n + 1, h⟩ h0 h1]
      dsimp only
      rw [Pieces.scratch_C, carried_apply, iblk_eq, point_value]
      rfl
    · rw [outsAt0_B m c ⟨n + 1, h⟩ h0 h1]
      dsimp only
      rw [Pieces.scratch_B, carried_apply, iblk_eq, point_value]
      rfl

/-- After the last point the cell holds the sum of the contributions of all pairs. -/
theorem scratch_last (c : Dev nD) (h : 15 < cfg0.N) :
    (outsAt0 m c 15 h).2 (ix2 (0 : Fin 1) (0 : Fin 1)) = total (pts m c) := by
  rw [scratch_after m c 15 h, total_by_tiles, Ideal.ofBits_zero_f32, zero_add]
  refine Finset.sum_congr rfl fun k _ => ?_
  unfold runTotal
  rw [Ideal.ofBits_zero_f32, zero_add]
  rfl

/-- The last point leaves the loss in the output cell. -/
theorem out_last (c : Dev nD) (h : 15 < cfg0.N) : (outsAt0 m c 15 h).1 = fun _ => loss (pts m c) := by
  have h0 : ¬(⟨15, h⟩ : Fin cfg0.N).val % 16 = 0 := by dsimp only; omega
  have h1 : (⟨15, h⟩ : Fin cfg0.N).val % 16 = 15 := rfl
  have e2 := scratch_last m c h
  have e' : outsAt0 m c 15 h = _ := outsAt0_C m c ⟨15, h⟩ h0 h1
  rw [e'] at e2 ⊢
  dsimp only at e2 ⊢
  rw [Pieces.scratch_C] at e2
  rw [Pieces.out_C]
  funext y
  have hy : y = ix2 (0 : Fin 1) (0 : Fin 1) := by
    funext a
    apply Fin.ext
    match a with
    | ⟨0, _⟩ => have : (y 0).val < 1 := (y 0).isLt; show (y 0).val = 0; omega
    | ⟨1, _⟩ => have : (y 1).val < 1 := (y 1).isLt; show (y 1).val = 0; omega
  subst hy
  show Ideal.log (Ideal.div (carried (F := Ideal) _ _ _ (ix2 (0 : Fin 1) (0 : Fin 1))) (Ideal.ofBits .f32 0x4BFFF800#32)) = _
  rw [e2]
  rfl

end Cert.KernelIdeal.Accum

end
-- ==== Proof.KernelValue.lean ====
/-
  The kernel's result is the loss of the point array.

  The output cell is written back to its one-entry array once, after the last grid point, when it holds the loss;
  that block is the whole array, so the array ends holding the loss.  The host line after the region lays the
  one-entry array out as a scalar, which is therefore the loss too, and the point array is left as it was.
-/
import proofs.«100178_j43284680409440_1_alg».proof.Proof.Accum
import proofs.«100178_j43284680409440_1_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.KernelValue

open Cert.KernelIdeal Cert.KernelIdeal.Gen Cert.KernelIdeal.Accum Cert.PairLoss

variable (m : (ℓ : Loc nD τ sig) → Buf (Elt Ideal) ℓ) (ρ : Dev nD → PrngReg)

/-- The one-entry array the region writes: the loss of the point array. -/
abbrev cell (c : Dev nD) : Buf (Elt Ideal) ((c : Thread nD τ).loc main_v0) := fun _ => loss (pts m c)

/-- The one write-back, after the last point, writes the loss: the block is the whole one-entry array. -/
theorem flushed_eq (c : Dev nD) (t : Fin cfg0.N) (hf : (cfg0.win 1).flush t = true) :
    (dats m 0 c).flushed 1 t = ((cfg0.win 1).blk t).view.read (Elt Ideal) (cell m c) := by
  have hN : cfg0.N = 16 := N_0
  have h15 : t.val = 15 := by have := (flush0_1 t).mp hf; have := t.isLt; omega
  obtain rfl : t = t0_15 := Fin.ext h15
  show (cfg0.win 1).cut (grid0.coords t0_15) ((dats m 0 c).after 1 t0_15) = _
  have e : (dats m 0 c).after 1 t0_15 = cell m c := (after0_1 m c t0_15).trans (out_last m c t0_15.isLt)
  rw [e]
  have hz' : (fun a => win0_1.index t0_15 a * main_v0.ty.shape.size a) = fun _ => 0 :=
    funext fun a => by fin_cases a <;> decide
  exact (Memref.read_access_unit_zero (Elt Ideal) main_v0 hz' (fun a => by rw [congrFun hz' a]; simp) (cell m c)).symm

/-- So the region's result array ends holding the loss: the last point's block covers its one entry. -/
theorem final (c : Dev nD) : (dats m 0 c).arrAt 1 cfg0.N = cell m c :=
  (dats m 0 c).arrAt_eq_of_cover 1 (cell m c) (flushed_eq m c) fun i =>
    ⟨t0_15, (flush0_1 t0_15).mpr rfl, by
      show i ∈ ((View.whole main_v0).slice (win0_1.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index t0_15 0 * win0_1.size 0 ≤ (i 0 : Nat)
          ∧ (i 0 : Nat) < win0_1.index t0_15 0 * win0_1.size 0 + win0_1.xsize (grid0.coords t0_15) 0
        rw [show win0_1.index t0_15 0 * win0_1.size 0 = 0 from by decide +kernel,
          show win0_1.xsize (grid0.coords t0_15) 0 = 1 from by decide +kernel]
        omega
      | ⟨1, _⟩ =>
        show win0_1.index t0_15 1 * win0_1.size 1 ≤ (i 1 : Nat)
          ∧ (i 1 : Nat) < win0_1.index t0_15 1 * win0_1.size 1 + win0_1.xsize (grid0.coords t0_15) 1
        rw [show win0_1.index t0_15 1 * win0_1.size 1 = 0 from by decide +kernel,
          show win0_1.xsize (grid0.coords t0_15) 1 = 1 from by decide +kernel]
        omega⟩

/-- The host line after the region lays the one-entry array out as a scalar: the scalar is the loss. -/
theorem tail_eq (c : Dev nD) :
    Pipeline.afterTail₀ cfgs (dats m) 0 (V0 m) [hostOps1] c main_v1 = fun _ => loss (pts m c) := by
  unfold Pipeline.afterTail₀
  show StableHlo.after hostOps1 _ (Proc.devRef .tc main_v1) = _
  after_results
  funext i
  have hw : Pipeline.withArrays (cfgs 0).spec c (V0 m c) (fun w => (dats m 0 c).arrAt w (cfgs 0).N)
      (Proc.tc.devRef main_v0) = cell m c :=
    (Pipeline.withArrays_arr spec0 launch0.win.arr_inj c _ _ 1).trans (final m c)
  rw [hw]
  rfl

/-- The run, read: the result at the loss of the point array, the point array unchanged. -/
theorem run : θ_run defs (onTc (τ := τ) (main (F := Ideal))) ⟨m, fun _ => 0, ρ⟩ fun r => ∀ c : Dev nD,
      r.2.mem ((c.tc : Thread nD τ).loc main_v1) = (fun _ => loss (m ((c.tc : Thread nD τ).loc main_arg0)))
      ∧ r.2.mem ((c.tc : Thread nD τ).loc main_arg0) = m ((c.tc : Thread nD τ).loc main_arg0) :=
  (θ_run defs _ _).mono (fun _ h c => ⟨((h c).2 main_v1 (by decide)).trans (tail_eq m c),
      ((h c).1 0).trans (((dats m 0 c).arrAt_in 0 rfl _).trans ((A_eq m c 0).trans (V_main_arg0 m c)))⟩)
    (run_main m ρ)

end Cert.KernelIdeal.KernelValue

end
-- ==== Proof.RefValue.lean ====
/-
  The reference computes the loss.

  Read one operation at a time, the reference forms for every pair `(i, j)` the floored squared distance
  `max (|x_i|² + |x_j|² - 2 · ⟨x_i, x_j⟩) 0` (the row sums start from the zero word, which adds nothing; the product
  with the transposed array is the sum of the products), the weight `exp (-2 · d)`, and keeps it where the mask
  `not (i ≥ j)` holds; it adds all entries up, divides by the number of pairs and takes the logarithm.  The mask's
  words are row and column numbers below `2³¹`, so it says `i < j`.
-/
import proofs.«100178_j43284680409440_1_alg».proof.Proof.Gen.ReferenceIdeal.Read
import proofs.«100178_j43284680409440_1_alg».proof.Proof.Spec
import proofs.«100178_j43284680409440_1_alg».proof.Proof.LibWordOrder
import Idealize.ShloMosaic.PureOps.Ideal.Laws
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx Cert.PairLoss

/-- The strict upper triangle: false where `i + 0 ≥ j`, true elsewhere, is `i < j`. -/
theorem mask_eq (i j : ℕ) (hi : i < 2 ^ 31) (hj : j < 2 ^ 31) :
    Scalar.select (IntOp.cmpi .sge (IntOp.addi (BitVec.ofNat 32 i) 0#32) (BitVec.ofNat 32 j)) (0#1) (1#1) = earlier i j := by
  have e : IntOp.addi (BitVec.ofNat 32 i) 0#32 = BitVec.ofNat 32 i := by
    show BitVec.ofNat 32 i + 0#32 = _
    exact BitVec.add_zero _
  rw [e, Cert.WordOrder.sge_ofNat i j hi hj]
  unfold Scalar.select earlier
  by_cases h : j ≤ i
  · have h' : ¬i < j := by omega
    simp [h, h']
  · have h' : i < j := by omega
    simp [h, h']

/-- The reference's row sums are the squared norms. -/
theorem sqsum (x0 : (⟨S8192x512, .f32⟩ : BufTy).Contents (Elt Ideal)) (i : Fin 8192) :
    val_main_v1 (F := Ideal) x0 (ix1 i) = sqNorm x0 i := by
  rw [val_main_v1_apply]
  show Ideal.ofBits .f32 0x00000000#32 + ∑ k : Fin 512, x0 (idx_main_v1 (ix1 i) k) * x0 (idx_main_v1 (ix1 i) k) = _
  rw [Ideal.ofBits_zero_f32, zero_add]
  unfold sqNorm
  refine Finset.sum_congr rfl fun k _ => ?_
  have e : idx_main_v1 (ix1 i) k = ix2 i k :=
    funext fun a => Fin.ext (by match a with | ⟨0, _⟩ => rfl | ⟨1, _⟩ => rfl)
  rw [e]

/-- The reference's products with the transposed array are the inner products. -/
theorem gram (x0 : (⟨S8192x512, .f32⟩ : BufTy).Contents (Elt Ideal)) (i j : Fin 8192) :
    val_main_v8 (F := Ideal) x0 (ix2 i j) = inner x0 i j := by
  rw [val_main_v8_apply]
  unfold PairLoss.inner
  refine Finset.sum_congr rfl fun k _ => ?_
  rw [val_main_v7_apply]
  have e3 : lidx_main_v8 (ix2 i j) k = ix2 i k :=
    funext fun a => Fin.ext (by match a with | ⟨0, _⟩ => rfl | ⟨1, _⟩ => rfl)
  have e4 : idx_main_v7 (ridx_main_v8 (ix2 i j) k) = ix2 j k :=
    funext fun a => Fin.ext (by match a with | ⟨0, _⟩ => rfl | ⟨1, _⟩ => rfl)
  rw [e3, e4]

/-- Entry `(i, j)` of the masked table is the pair's contribution. -/
theorem entry (x0 : (⟨S8192x512, .f32⟩ : BufTy).Contents (Elt Ideal)) (i j : Fin 8192) :
    val_main_v19 (F := Ideal) x0 (ix2 i j) = weight x0 i j := by
  have hi := i.isLt
  have hj := j.isLt
  have e1 : idx_main_v2 (idx_main_v4 (ix2 i j)) = ix1 i :=
    funext fun a => Fin.ext (by match a with | ⟨0, _⟩ => rfl)
  have e2 : idx_main_v3 (idx_main_v5 (ix2 i j)) = ix1 j :=
    funext fun a => Fin.ext (by match a with | ⟨0, _⟩ => rfl)
  simp only [val_main_v19_apply, val_main_v15_apply, val_main_call0_v4_apply, val_main_call0_v2_apply,
    val_main_call0_v0_apply, val_main_call0_v1_apply, val_main_call0_c_apply, val_main_call0_v3_apply,
    val_main_call0_v5_apply, val_main_call0_c_0_apply, val_main_v14_apply, val_main_c_apply, val_main_call1_v1_apply,
    val_main_call1_v0_apply, val_main_cst_3_apply, val_main_v18_apply, val_main_v17_apply, val_main_v16_apply,
    val_main_cst_2_apply, val_main_v13_apply, val_main_v12_apply, val_main_cst_1_apply, val_main_v11_apply,
    val_main_v6_apply, val_main_v4_apply, val_main_v2_apply, val_main_v5_apply, val_main_v3_apply, val_main_v10_apply,
    val_main_v9_apply, val_main_cst_0_apply, e1, e2, sqsum, gram,
    Ideal.mulf_def, Ideal.addf_def, Ideal.subf_def, Ideal.maximumf_def, Ideal.hostUnary_exp_def, Ideal.ofBits_def]
  show Scalar.select (Scalar.select (IntOp.cmpi .sge (IntOp.addi (BitVec.ofNat 32 i.val) 0#32) (BitVec.ofNat 32 j.val)) (0#1) (1#1))
      _ _ = _
  rw [mask_eq i.val j.val (by omega) (by omega)]
  rfl

/-- The reference's result is the loss of its argument. -/
theorem result_eq (x0 : (⟨S8192x512, .f32⟩ : BufTy).Contents (Elt Ideal)) :
    val_main_v22 (F := Ideal) x0 = fun _ => loss x0 := by
  funext i0
  rw [val_main_v22_apply, val_main_v21_apply, val_main_v20_apply, val_main_cst_5_apply, val_main_cst_4_apply]
  simp only [Ideal.hostUnary_log_def, Ideal.hostDivf_def, Ideal.ofBits_def, Ideal.ofBits_zero_f32, zero_add]
  unfold loss total
  rw [sum_idx2]
  simp only [entry]

end Cert.ReferenceIdeal.RefValue

end
-- ==== Proof.lean ====
/-
  The uniformity loss of 8192 points in 512 dimensions: a tiled kernel against the whole-table reference.

  Both programs compute `log ((∑_{i < j} exp (-2 · d(i, j))) / P)` with
  `d(i, j) = max (|x_i|² + |x_j|² - 2 · ⟨x_i, x_j⟩) 0` and `P = 8192 · 8191 / 2` the number of pairs.  The
  reference forms the whole 8192 × 8192 table of weights, masked to the strict upper triangle, and adds it up at
  once.  The kernel visits the table in 16 × 16 tiles of 512 × 512 pairs: one grid point per run of 512 rows and
  sixteen column tiles per point; a tile's kept weights are added along each row and then down the column of row
  totals, the tiles' totals are added one after the other to the point's total, and the points' totals to a total
  carried across the grid in a one-entry scratch cell, zeroed at the first point; the last point divides the
  carried total by `P` and takes the logarithm.

  On the extended reals with exact operations the two agree.  The kernel narrows the operands of its inner
  products to a shorter float format, which is the identity there; its product into a zero accumulator is the sum
  of the products, as the reference's is; both masks are comparisons of row and column numbers far below `2³¹` and
  say `i < j`; the constants 2, -2, 0 and `P` are the same words in both programs.  What remains is the order
  and grouping of a finite sum, and addition on the extended reals is commutative and associative with zero as its
  unit.  No entry has to be finite for that, so the precondition is never opened.

  The three programs run, terminate and leave the point array unchanged: for the two kernels this is their
  frame, for the reference its run with the result dropped.  The idealized kernel is the kernel's own text read at
  the exact operations: nothing was rewritten, so there is nothing to preserve.
-/
import proofs.«100178_j43284680409440_1_alg».proof.Defs
import proofs.«100178_j43284680409440_1_alg».proof.Proof.Gen.Kernel
import proofs.«100178_j43284680409440_1_alg».proof.Proof.Gen.Kernel.Frame
import proofs.«100178_j43284680409440_1_alg».proof.Proof.Gen.KernelIdeal
import proofs.«100178_j43284680409440_1_alg».proof.Proof.Gen.KernelIdeal.Frame
import proofs.«100178_j43284680409440_1_alg».proof.Proof.Gen.ReferenceIdeal
import proofs.«100178_j43284680409440_1_alg».proof.Proof.Gen.Pre_finite_inputs
import proofs.«100178_j43284680409440_1_alg».proof.Proof.Gen.ReferenceIdeal.Run
import proofs.«100178_j43284680409440_1_alg».proof.Proof.Gen.ReferenceIdeal.Read
import proofs.«100178_j43284680409440_1_alg».proof.Proof.KernelValue
import proofs.«100178_j43284680409440_1_alg».proof.Proof.RefValue
import Idealize.ShloMosaic.Adequacy
import Idealize.ShloMosaic.Init

noncomputable section

namespace Cert.Proof

open Idealize.ShloMosaic Idealize.ShloMosaic.TcCoe Idealize.SL.Sem

/-- The kernel runs and leaves the point array as it was. -/
theorem frame_kernel : Cert.frame_Kernel := fun m ρ _ => Cert.Kernel.Gen.frame m ρ

/-- So does the kernel read at the exact operations. -/
theorem frame_kernelIdeal : Cert.frame_KernelIdeal := fun m ρ _ => Cert.KernelIdeal.Gen.frame m ρ

/-- The reference runs and leaves the point array as it was: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its exact reading. -/
theorem preserves : Cert.preserves_Kernel_KernelIdeal := trivial

/-- From memories that agree on the point array both programs end with the loss of that array as their result. -/
theorem algebraic : Cert.algebraic_KernelIdeal_ReferenceIdeal := by
  intro m ρ m' ρ' _ hagree
  refine ⟨fun c => fun _ => Cert.PairLoss.loss (m ((c.tc : Thread Cert.KernelIdeal.nD Cert.KernelIdeal.τ).loc Cert.KernelIdeal.main_arg0)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v22_eq, Cert.ReferenceIdeal.RefValue.result_eq, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
